-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x1x1 : Shape := ⟨3, ![16, 1, 1]⟩
abbrev S1x512x3 : Shape := ⟨3, ![1, 512, 3]⟩
abbrev S1x3x4096 : Shape := ⟨3, ![1, 3, 4096]⟩
abbrev S1x1x1 : Shape := ⟨3, ![1, 1, 1]⟩
abbrev S1x4096 : Shape := ⟨2, ![1, 4096]⟩
abbrev S1x1 : Shape := ⟨2, ![1, 1]⟩
abbrev S512x3 : Shape := ⟨2, ![512, 3]⟩
abbrev S3x4096 : Shape := ⟨2, ![3, 4096]⟩
abbrev S512x4096 : Shape := ⟨2, ![512, 4096]⟩
abbrev S512x1 : Shape := ⟨2, ![512, 1]⟩
abbrev S512 : Shape := ⟨1, ![512]⟩
abbrev S1 : Shape := ⟨1, ![1]⟩
abbrev S4096 : Shape := ⟨1, ![4096]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x1x1, .f32⟩
  | .hbm, ⟨4, _⟩ => ⟨S_, .f32⟩
  | .hbm, ⟨5, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | .local _ .vmem, ⟨5, _⟩ => ⟨S1x1x1, .f32⟩
  | .local _ .vmem, ⟨6, _⟩ => ⟨S1x4096, .f32⟩
  | .local _ .vmem, ⟨7, _⟩ => ⟨S1x1, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_17 : BitVec 32 := 0#32
  let v47 : BitVec 1 := Scalar.cmpi .ne v46 c0_i32_17
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16x4096x3_S16x3x4096_0_2_1 : S16x4096x3.Transposes [0, 2, 1] S16x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  reduces_S512x4096_S4096 : S512x4096.Reduces [0] S4096
  shapeCasts_S4096_S1x4096 : S4096.ShapeCasts S1x4096
  reduces_S1x4096_S1 : S1x4096.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x4096x3.size a
  hwx0_0 : ∀ i : grid0.Coords, EltTy.bits .f32 = 32 ∨ (Rect.block (s := S16x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.LibMinFold.lean ====
/- General facts about minima over a finite family of extended reals taken from the top, and about the two
   minimum-reductions that compute them: a vector minimum-reduction and a host minimum-reduction along one axis, each
   started from the pattern of +infinity; with two layout steps for columns. Nothing here depends on a particular
   program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MinFold

/-- The f32 pattern of +infinity denotes the top of the extended reals. -/
theorem ofBits_inf : Ideal.ofBits .f32 0x7F800000#32 = ⊤ := by
  simp [Ideal.ofBits, Ideal.ieee]

/-- An extended real lies below the minimum of a finite family taken from the top iff it lies below every member:
    the minimum by its universal property, with no order of folding in it. -/
theorem le_fold_min_univ {ι : Type} [Fintype ι] (f : ι → EReal) (x : EReal) :
    x ≤ (Finset.univ : Finset ι).fold min ⊤ f ↔ ∀ k, x ≤ f k := by
  rw [Finset.le_fold_min]
  simp

/-- Two extended reals with the same lower bounds are equal (so two minima described by `le_fold_min_univ` over the
    same members, however blocked, are equal). -/
theorem eq_of_le_iff {u v : EReal} (h : ∀ x, x ≤ u ↔ x ≤ v) : u = v :=
  le_antisymm ((h u).mp le_rfl) ((h v).mpr le_rfl)

/-- A vector minimum-reduction along ONE axis from the pattern of +infinity, read on the extended reals at a reduced
    index `j`: the minimum, from the top, over that axis's coordinates of the source at `j` with the coordinate
    inserted. The hypotheses are typed as a printed body's proof arguments are. -/
theorem minRed_apply {s t : Shape} {a : Fin s.rank} (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j
      = (Finset.univ : Finset (Fin (s.size a))).fold min ⊤ (src ∘ h.lift j) := by
  rw [multiReduction_minimumf_eq_fold]
  refine (h.fold_filter_drop_single FloatOps.minimumf _ src j).trans ?_
  show Finset.fold min (Ideal.ofBits .f32 0x7F800000#32) _ _ = _
  rw [ofBits_inf]

/-- The host's one-operand reduction with a minimum body along ONE axis from the constant +infinity, read on the
    extended reals at a reduced index `j`: the same minimum. -/
theorem hostMinRed_apply {s t u : Shape} {a : Fin s.rank} (x : FVec Ideal s .f32) (h' : s.ReducesTo [a] t) (h : s.Reduces [a] t)
    (hu : 0 < u.numel) (j : t.Idx) :
    Host.reduce FloatOps.minimumf x (constant (F := Ideal) u .f32 0x7F800000#32) h' hu j
      = (Finset.univ : Finset (Fin (s.size a))).fold min ⊤ (x ∘ h.lift j) := by
  rw [Host.reduce_eq_fold_single FloatOps.minimumf x _ h' h hu]
  show Finset.fold min (Ideal.ofBits .f32 0x7F800000#32) _ _ = _
  rw [ofBits_inf]

/-- A column `[a, 1]` broadcast along the lanes to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.MinFold

end
-- ==== Proof.ChamferSpec.lean ====
/- The Chamfer cost as one function of the table of squared distances, the two ways of writing a squared distance, and
   the order and summation facts the running minimum and the running sum rest on. -/
import Idealize.ShloMosaic.PureOps.Ideal
import Idealize.ShloMosaic.PureOps.Ideal.Laws
import proofs.«120232_j61194694033711_2_alg».proof.Proof.LibMinFold

noncomputable section

namespace Cert.Chamfer

open Idealize.ShloMosaic Cert.Lib.MinFold

/-! ## The float patterns the two programs spell, as extended reals -/

/-- `2.0`. -/
theorem ofBits_two : Ideal.ofBits .f32 0x40000000#32 = ((2 : ℝ) : EReal) := by
  simp [Ideal.ofBits, Ideal.ieee, -EReal.coe_mul]; norm_num

/-- `4096.0`. -/
theorem ofBits_4096 : Ideal.ofBits .f32 0x45800000#32 = ((4096 : ℝ) : EReal) := by
  simp [Ideal.ofBits, Ideal.ieee, -EReal.coe_mul]; norm_num

/-- `2^-12`, exactly the reciprocal of 4096. -/
theorem ofBits_inv4096 : Ideal.ofBits .f32 0x39800000#32 = ((1 / 4096 : ℝ) : EReal) := by
  simp [Ideal.ofBits, Ideal.ieee, -EReal.coe_mul]; norm_num

/-! ## The cost -/

/-- For point `n` of the first cloud of batch `b`: the least squared distance to a point of the second cloud. -/
def rowMin (d2 : Fin 16 → Fin 4096 → Fin 4096 → EReal) (b : Fin 16) (n : Fin 4096) : EReal :=
  (Finset.univ : Finset (Fin 4096)).fold min ⊤ (fun q => d2 b n q)

/-- For point `q` of the second cloud of batch `b`: the least squared distance to a point of the first cloud. -/
def colMin (d2 : Fin 16 → Fin 4096 → Fin 4096 → EReal) (b : Fin 16) (q : Fin 4096) : EReal :=
  (Finset.univ : Finset (Fin 4096)).fold min ⊤ (fun n => d2 b n q)

/-- One batch's cost: the two means, added and halved. -/
def batchCost (d2 : Fin 16 → Fin 4096 → Fin 4096 → EReal) (b : Fin 16) : EReal :=
  ((∑ n : Fin 4096, rowMin d2 b n) * ((1 / 4096 : ℝ) : EReal) + (∑ q : Fin 4096, colMin d2 b q) * ((1 / 4096 : ℝ) : EReal))
    * Ideal.ofBits .f32 0x3F000000#32

/-- The cost: the batches' costs summed. -/
def cost (d2 : Fin 16 → Fin 4096 → Fin 4096 → EReal) : EReal := ∑ b : Fin 16, batchCost d2 b

/-! ## A squared distance, written two ways -/

/-- The sum over the three coordinates of the squared difference, accumulated from zero. -/
def sqDiff (a b : Fin 3 → EReal) : EReal :=
  ((0 + (a 0 - b 0) * (a 0 - b 0)) + (a 1 - b 1) * (a 1 - b 1)) + (a 2 - b 2) * (a 2 - b 2)

/-- The two squared norms minus twice the inner product, each sum accumulated from zero. -/
def sqExpand (a b : Fin 3 → EReal) : EReal :=
  ((0 + ∑ k : Fin 3, a k * a k) + (0 + ∑ k : Fin 3, b k * b k)) - ((2 : ℝ) : EReal) * ∑ k : Fin 3, a k * b k

/-- Over real coordinates the two are one number: the square of a difference expanded. At an infinite coordinate they
    differ (one side meets ∞ − ∞), which is why the inputs are taken finite. -/
theorem sqDiff_eq_sqExpand (a b : Fin 3 → ℝ) :
    sqDiff (fun k => ((a k : ℝ) : EReal)) (fun k => ((b k : ℝ) : EReal))
      = sqExpand (fun k => ((a k : ℝ) : EReal)) (fun k => ((b k : ℝ) : EReal)) := by
  unfold sqDiff sqExpand
  simp only [zero_add, Fin.sum_univ_three, ← EReal.coe_mul, ← EReal.coe_add, ← EReal.coe_sub]
  exact congrArg _ (by ring)

/-! ## The running minimum, by what lies below it -/

/-- The running minimum over the first `512 (j + 1)` rows from the one over the first `512 j` and block `j`'s. -/
theorem running_min_step (col : Fin 4096 → EReal) (j : ℕ) (hj : j < 8) (prev blk : EReal)
    (hprev : ∀ x, x ≤ prev ↔ ∀ n : Fin 4096, n.val < 512 * j → x ≤ col n)
    (hblk : ∀ x, x ≤ blk ↔ ∀ r : Fin 512, x ≤ col ⟨512 * j + r.val, by have := r.isLt; omega⟩) (x : EReal) :
    x ≤ min prev blk ↔ ∀ n : Fin 4096, n.val < 512 * (j + 1) → x ≤ col n := by
  rw [le_min_iff, hprev, hblk]
  constructor
  · rintro ⟨h1, h2⟩ n hn
    by_cases h : n.val < 512 * j
    · exact h1 n h
    · have hr : n.val - 512 * j < 512 := by omega
      have := h2 ⟨n.val - 512 * j, hr⟩
      have e : (⟨512 * j + (n.val - 512 * j), by omega⟩ : Fin 4096) = n := Fin.ext (by show 512 * j + (n.val - 512 * j) = n.val; omega)
      rw [e] at this
      exact this
  · intro h
    exact ⟨fun n hn => h n (by omega), fun r => h _ (by show 512 * j + r.val < 512 * (j + 1); have := r.isLt; omega)⟩

/-! ## A sum over the first rows, block by block -/

/-- A family over the 4096 rows, continued by zero. -/
def ext (f : Fin 4096 → EReal) (n : ℕ) : EReal := if h : n < 4096 then f ⟨n, h⟩ else 0

theorem ext_of_lt (f : Fin 4096 → EReal) (n : ℕ) (h : n < 4096) : ext f n = f ⟨n, h⟩ := dif_pos h

/-- Over all 4096 rows the continued family sums to the family's sum. -/
theorem sum_range_ext (f : Fin 4096 → EReal) : ∑ n ∈ Finset.range 4096, ext f n = ∑ n : Fin 4096, f n := by
  rw [Finset.sum_range]
  exact Finset.sum_congr rfl fun i _ => ext_of_lt f i.val i.isLt

/-- The sum over the first `512 (j + 1)` rows from the one over the first `512 j` and block `j`'s. -/
theorem sum_range_block (f : Fin 4096 → EReal) (j : ℕ) :
    ∑ n ∈ Finset.range (512 * (j + 1)), ext f n
      = ∑ n ∈ Finset.range (512 * j), ext f n + ∑ r : Fin 512, ext f (512 * j + r.val) := by
  rw [show 512 * (j + 1) = 512 * j + 512 by ring, Finset.sum_range_add, Finset.sum_range (fun x => ext f (512 * j + x))]

end Cert.Chamfer

end
-- ==== Proof.Finite.lean ====
/- From the precondition — the absolute value of every entry of both clouds is below +infinity — to: every entry is a
   real number. -/
import proofs.«120232_j61194694033711_2_alg».proof.Pre_finite_inputs
import proofs.«120232_j61194694033711_2_alg».proof.Proof.ChamferSpec
import Idealize.ShloMosaic.Lib.ReduceAll
import Idealize.ShloMosaic.Lib.ValueIdx

noncomputable section

open Idealize.ShloMosaic

namespace Cert.Chamfer.Finite

open Cert.Pre_finite_inputs Cert.Lib.MinFold

instance : Subsingleton S_.Idx := ⟨fun a b => funext fun d => d.elim0⟩

/-- An extended real whose absolute value is below the top is a real. -/
theorem real_of_abs_lt_top (x : EReal) (h : Ideal.cmp .olt (max x (-x)) ⊤ = 1#1) : ∃ r : ℝ, x = (r : EReal) := by
  have hlt : max x (-x) < ⊤ := by
    by_contra hn
    unfold Ideal.cmp at h
    simp [hn] at h
  induction x using EReal.rec with
  | bot => simp at hlt
  | coe r => exact ⟨r, rfl⟩
  | top => simp at hlt

/-- The precondition all ones: both clouds hold reals only. -/
theorem reals_of_pre [Facts] (a0 a1 : FVec Ideal S16x4096x3 .f32)
    (h : fn (F := Ideal) a0 a1 = fun _ => 1#1) :
    (∀ i, ∃ r : ℝ, a0 i = (r : EReal)) ∧ (∀ i, ∃ r : ℝ, a1 i = (r : EReal)) := by
  have h' := congrFun h ValueIdx.ix0
  dsimp only [fn] at h'
  obtain ⟨h3, h7⟩ := IntOp.andi_eq_one.1 h'
  constructor
  · intro i
    have e := Host.reduce_andi_all _ _ _ _ _ h3 i
    have e' : Ideal.cmp .olt (max (a0 i) (-(a0 i))) (Ideal.ofBits .f32 0x7F800000#32) = 1#1 := e
    rw [ofBits_inf] at e'
    exact real_of_abs_lt_top _ e'
  · intro i
    have e := Host.reduce_andi_all _ _ _ _ _ h7 i
    have e' : Ideal.cmp .olt (max (a1 i) (-(a1 i))) (Ideal.ofBits .f32 0x7F800000#32) = 1#1 := e
    rw [ofBits_inf] at e'
    exact real_of_abs_lt_top _ e'

end Cert.Chamfer.Finite

end
-- ==== Proof.RefValue.lean ====
/- The reference's result, read one operation at a time: the cost of the table of squared distances written as the two
   squared norms minus twice the inner product. -/
import proofs.«120232_j61194694033711_2_alg».proof.Proof.Gen.ReferenceIdeal.Read
import proofs.«120232_j61194694033711_2_alg».proof.Proof.ChamferSpec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Chamfer Cert.Lib.MinFold

variable (x0 x1 : (⟨S16x4096x3, .f32⟩ : BufTy).Contents (Elt Ideal))

/-- The squared distance of row `n` of the first cloud and row `q` of the second, in batch `b`, as the reference forms it. -/
def d2R (b : Fin 16) (n q : Fin 4096) : EReal :=
  sqExpand (fun d => x0 (ix3 b n d)) (fun d => x1 (ix3 b q d))

/-- The table of squared distances at `(b, n, q)`. -/
theorem v12_at (b : Fin 16) (n q : Fin 4096) : val_main_v12 (F := Ideal) x0 x1 (ix3 b n q) = d2R x0 x1 b n q := by
  have e1 : ∀ k : Fin 3, idx_main_v1 (idx_main_v5 (idx_main_v7 (ix3 b n q))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n q))) k = ix3 b q k := fun k =>
    funext fun a => Fin.ext (by match a with | ⟨0, _⟩ => rfl | ⟨1, _⟩ => rfl | ⟨2, _⟩ => rfl)
  have e3 : ∀ k : Fin 3, lidx_main_v4 (ix3 b n q) k = ix3 b n k := fun k =>
    funext fun a => Fin.ext (by match a with | ⟨0, _⟩ => rfl | ⟨1, _⟩ => rfl | ⟨2, _⟩ => rfl)
  have e4 : ∀ k : Fin 3, ridx_main_v4 (ix3 b n q) k = ix3 b q k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply, val_main_v5_apply,
    val_main_v6_apply, val_main_v1_apply, val_main_v3_apply, val_main_v10_apply, val_main_v4_apply]
  simp only [val_main_cst_apply, val_main_cst_0_apply, val_main_cst_1_apply, val_main_v0_apply, val_main_v2_apply,
    Ideal.subf_def, Ideal.addf_def, Ideal.mulf_def, Ideal.ofBits_def, Ideal.ofBits_zero_f32, ofBits_two, e1, e2, e3, e4]
  rfl

theorem red_last : S16x4096x4096.Reduces [2] S16x4096 := by decide
theorem red_mid : S16x4096x4096.Reduces [1] S16x4096 := by decide

/-- The host's minimum-reduction from +infinity along the last axis, at `(b, n)`: the minimum over `q`. -/
theorem hostMin_last (x : FVec Ideal S16x4096x4096 .f32) (b : Fin 16) (n : Fin 4096) :
    Host.reduce FloatOps.minimumf x (constant (F := Ideal) S_ .f32 0x7F800000#32) reducesTo_S16x4096x4096_S16x4096_d2 h_S_ (ix2 b n)
      = (Finset.univ : Finset (Fin 4096)).fold min ⊤ (fun q => x (ix3 b n q)) := by
  rw [hostMinRed_apply x reducesTo_S16x4096x4096_S16x4096_d2 red_last h_S_]
  show Finset.fold min ⊤ _ (Finset.univ : Finset (Fin 4096)) = _
  refine congrArg (Finset.fold min ⊤ · Finset.univ) (funext fun q => congrArg x ?_)
  exact funext fun a => Fin.ext (by match a with | ⟨0, _⟩ => rfl | ⟨1, _⟩ => rfl | ⟨2, _⟩ => rfl)

/-- The same along the middle axis, at `(b, q)`: the minimum over `n`. -/
theorem hostMin_mid (x : FVec Ideal S16x4096x4096 .f32) (b : Fin 16) (q : Fin 4096) :
    Host.reduce FloatOps.minimumf x (constant (F := Ideal) S_ .f32 0x7F800000#32) reducesTo_S16x4096x4096_S16x4096_d1 h_S_ (ix2 b q)
      = (Finset.univ : Finset (Fin 4096)).fold min ⊤ (fun n => x (ix3 b n q)) := by
  rw [hostMinRed_apply x reducesTo_S16x4096x4096_S16x4096_d1 red_mid h_S_]
  show Finset.fold min ⊤ _ (Finset.univ : Finset (Fin 4096)) = _
  refine congrArg (Finset.fold min ⊤ · Finset.univ) (funext fun n => congrArg x ?_)
  exact funext fun a => Fin.ext (by match a with | ⟨0, _⟩ => rfl | ⟨1, _⟩ => rfl | ⟨2, _⟩ => rfl)

/-- Each row's minimum over the second cloud. -/
theorem v13_at (b : Fin 16) (n : Fin 4096) : val_main_v13 (F := Ideal) x0 x1 (ix2 b n) = rowMin (d2R x0 x1) b n := by
  unfold val_main_v13 val_main_cst_2 rowMin
  rw [hostMin_last]
  exact congrArg (Finset.fold min ⊤ · Finset.univ) (funext fun q => v12_at x0 x1 b n q)

/-- Each column's minimum over the first cloud. -/
theorem v14_at (b : Fin 16) (q : Fin 4096) : val_main_v14 (F := Ideal) x0 x1 (ix2 b q) = colMin (d2R x0 x1) b q := by
  unfold val_main_v14 val_main_cst_3 colMin
  rw [hostMin_mid]
  exact congrArg (Finset.fold min ⊤ · Finset.univ) (funext fun n => v12_at x0 x1 b n q)

/-- One batch's cost: the two means (sums divided by 4096), added and halved. -/
theorem v23_at (b : Fin 16) : val_main_v23 (F := Ideal) x0 x1 (ix1 b) = batchCost (d2R x0 x1) b := by
  have i15 : ∀ k : Fin 4096, idx_main_v15 (ix1 b) k = ix2 b k := fun k =>
    funext fun a => Fin.ext (by match a with | ⟨0, _⟩ => rfl | ⟨1, _⟩ => rfl)
  have i18 : ∀ k : Fin 4096, idx_main_v18 (ix1 b) k = ix2 b k := fun k =>
    funext fun a => Fin.ext (by match a with | ⟨0, _⟩ => rfl | ⟨1, _⟩ => rfl)
  rw [val_main_v23_apply, val_main_v21_apply, val_main_v17_apply, val_main_v20_apply, val_main_v15_apply, val_main_v18_apply,
    val_main_v16_apply, val_main_v19_apply, val_main_v22_apply]
  simp only [val_main_cst_4_apply, val_main_cst_5_apply, val_main_cst_6_apply, val_main_cst_7_apply, val_main_cst_8_apply,
    Ideal.hostDivf_def, Ideal.addf_def, Ideal.mulf_def, Ideal.ofBits_def, Ideal.ofBits_zero_f32, ofBits_4096, zero_add,
    i15, i18, v13_at, v14_at, Ideal.div_coe (show (4096 : ℝ) ≠ 0 by norm_num)]
  rfl

/-- The batches indexed by the rank-one index they are summed over. -/
theorem sum_batches (f : S16.Idx → EReal) : ∑ j : S16.Idx, f j = ∑ b : Fin 16, f (ix1 b) :=
  Fintype.sum_equiv ⟨fun j => (j 0 : Fin 16), fun b => ix1 b, fun j => (eq_ix1 j).symm, fun _ => rfl⟩ _ _
    fun j => congrArg f (eq_ix1 j)

/-- The reference's result: the cost of its table of squared distances. -/
theorem result_eq : val_main_v24 (F := Ideal) x0 x1 = fun _ => cost (d2R x0 x1) := by
  funext i
  rw [val_main_v24_apply, sum_batches]
  simp only [val_main_cst_9_apply, Ideal.ofBits_def, Ideal.ofBits_zero_f32, zero_add, v23_at]
  rfl

end Cert.ReferenceIdeal.RefValue

end
-- ==== Proof.Pieces.lean ====
/- What each control case of the body leaves in the two carried scratch buffers and in the output block, as the body's
   arithmetic applied to the point's input blocks and to what the point before left. -/
import proofs.«120232_j61194694033711_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle block: the running column minimum becomes its minimum with the block's column minimum. -/
theorem sout_B_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : ¬cond0_1 i)
    (x0 : Vec F S1x512x3 .f32) (x1 : Vec F S1x3x4096 .f32) (xs0 : Vec F S1x4096 .f32) (xs1 : Vec F S1x1 .f32) :
    sout0_B_0 c i arg2 harg2 arg3 harg3 arg4 harg4 arg5 harg5 arg6 harg6 hc0 hc1 x0 x1 xs0 xs1 = k0_pay1 (k0_pay7 x0 x1) xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread,
    View.ld_unit_zero (S := S1x512x3) hz3, View.ld_unit_zero (S := S1x3x4096) hz3, View.ld_unit_zero (S := S1x4096) hz2,
    View.ld_unit_zero (S := S1x1) hz2]

/-- A middle block: the running sum grows by the sum of the block's row minima. -/
theorem sout_B_1 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : ¬cond0_1 i)
    (x0 : Vec F S1x512x3 .f32) (x1 : Vec F S1x3x4096 .f32) (xs0 : Vec F S1x4096 .f32) (xs1 : Vec F S1x1 .f32) :
    sout0_B_1 c i arg2 harg2 arg3 harg3 arg4 harg4 arg5 harg5 arg6 harg6 hc0 hc1 x0 x1 xs0 xs1 = k0_pay6 x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread,
    View.ld_unit_zero (S := S1x512x3) hz3, View.ld_unit_zero (S := S1x3x4096) hz3, View.ld_unit_zero (S := S1x4096) hz2,
    View.ld_unit_zero (S := S1x1) hz2]

/-- The last block of a batch updates the two scratch buffers as a middle block does. -/
theorem sout_C_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : cond0_1 i)
    (x0 : Vec F S1x512x3 .f32) (x1 : Vec F S1x3x4096 .f32) (xs0 : Vec F S1x4096 .f32) (xs1 : Vec F S1x1 .f32) :
    sout0_C_0 c i arg2 harg2 arg3 harg3 arg4 harg4 arg5 harg5 arg6 harg6 hc0 hc1 x0 x1 xs0 xs1 = k0_pay1 (k0_pay7 x0 x1) xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread,
    View.ld_unit_zero (S := S1x512x3) hz3, View.ld_unit_zero (S := S1x3x4096) hz3, View.ld_unit_zero (S := S1x4096) hz2,
    View.ld_unit_zero (S := S1x1) hz2]

theorem sout_C_1 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : cond0_1 i)
    (x0 : Vec F S1x512x3 .f32) (x1 : Vec F S1x3x4096 .f32) (xs0 : Vec F S1x4096 .f32) (xs1 : Vec F S1x1 .f32) :
    sout0_C_1 c i arg2 harg2 arg3 harg3 arg4 harg4 arg5 harg5 arg6 harg6 hc0 hc1 x0 x1 xs0 xs1 = k0_pay6 x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread,
    View.ld_unit_zero (S := S1x512x3) hz3, View.ld_unit_zero (S := S1x3x4096) hz3, View.ld_unit_zero (S := S1x4096) hz2,
    View.ld_unit_zero (S := S1x1) hz2]

/-- The last block of a batch then stores the batch's cost, computed from the two scratch buffers as just updated. -/
theorem out_C_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : cond0_1 i)
    (x0 : Vec F S1x512x3 .f32) (x1 : Vec F S1x3x4096 .f32) (xs0 : Vec F S1x4096 .f32) (xs1 : Vec F S1x1 .f32) :
    out0_C_2 c i arg2 harg2 arg3 harg3 arg4 harg4 arg5 harg5 arg6 harg6 hc0 hc1 x0 x1 xs0 xs1 = k0_pay2 (k0_pay1 (k0_pay7 x0 x1) xs0) (k0_pay6 x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3]
  simp only [View.readAt_eq_ld, harg2.read_unread, harg3.read_unread, harg5.read_unread, harg6.read_unread,
    View.ld_unit_zero (S := S1x512x3) hz3, View.ld_unit_zero (S := S1x3x4096) hz3, View.ld_unit_zero (S := S1x4096) hz2,
    View.ld_unit_zero (S := S1x1) hz2]
  rw [View.readCov_unit_zero (S := S1x4096) _ hz2, View.readCov_unit_zero (S := S1x1) _ hz2]

/-- The first block of a batch: the running column minimum restarts from +infinity. -/
theorem sout_A_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S1x4096 .f32) (harg5 : arg5.IsWhole) (arg6 : Memref sig .tc .vmem S1x1 .f32) (harg6 : arg6.IsWhole) (hc0 : cond0_0 i) (hc1 : ¬cond0_1 i)
    (x0 : Vec F S1x512x3 .f32) (x1 : Vec F S1x3x4096 .f32) :
    sout0_A_0 c i arg2 harg2 arg3 harg3 arg4 harg4 arg5 harg5 arg6 harg6 hc0 hc1 x0 x1 = k0_pay1 (k0_pay7 x0 x1) (k0_pay3 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2]
  simp only [View.readAt_eq_ld, harg2.read_unread, harg3.read_unread, harg5.read_unread, harg6.read_unread,
    View.ld_unit_zero (S := S1x512x3) hz3, View.ld_unit_zero (S := S1x3x4096) hz3, View.ld_unit_zero (S := S1x4096) hz2,
    View.ld_unit_zero (S := S1x1) hz2]
  rw [View.readCov_unit_zero (S := S1x4096) _ hz2]

/-- The first block of a batch: the running sum restarts from zero. -/
theorem sout_A_1 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S1x4096 .f32) (harg5 : arg5.IsWhole) (arg6 : Memref sig .tc .vmem S1x1 .f32) (harg6 : arg6.IsWhole) (hc0 : cond0_0 i) (hc1 : ¬cond0_1 i)
    (x0 : Vec F S1x512x3 .f32) (x1 : Vec F S1x3x4096 .f32) :
    sout0_A_1 c i arg2 harg2 arg3 harg3 arg4 harg4 arg5 harg5 arg6 harg6 hc0 hc1 x0 x1 = k0_pay6 x0 x1 (k0_pay4 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2]
  simp only [View.readAt_eq_ld, harg2.read_unread, harg3.read_unread, harg5.read_unread, harg6.read_unread,
    View.ld_unit_zero (S := S1x512x3) hz3, View.ld_unit_zero (S := S1x3x4096) hz3, View.ld_unit_zero (S := S1x4096) hz2,
    View.ld_unit_zero (S := S1x1) hz2]
  rw [View.readCov_unit_zero (S := S1x1) _ hz2]

end Cert.KernelIdeal.Pieces

end
-- ==== Proof.Payloads.lean ====
/- The body's arithmetic read at an index, on the extended reals: the block of squared distances, its row and column
   minima, the running minimum and the running sum, and the batch's cost. -/
import proofs.«120232_j61194694033711_2_alg».proof.Proof.Gen.KernelIdeal.Skeleton
import proofs.«120232_j61194694033711_2_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen Cert.Chamfer Cert.Lib.MinFold

/-! ## A sum along one axis, as the body's reduction spells it -/

/-- A sum-reduction along one axis: the sum over that axis's coordinates. -/
theorem addRed_apply {s t : Shape} {a : Fin s.rank} (src : FVec Ideal s .f32) (h : s.Reduces [a] t) (hφ : FKind.Formats .f32)
    (hacc : (0x00000000#32 : BitVec 32) = FKind.add.neutral .f32 hφ) (j : t.Idx) :
    multiReduction .add [a] t src 0x00000000#32 h hφ hacc j = ∑ k : Fin (s.size a), src (h.lift j k) :=
  Ideal.multiReduction_add_single src _ h hφ hacc j

/-! ## The block of squared distances -/

variable (x0 : Vec Ideal S1x512x3 .f32) (x1 : Vec Ideal S1x3x4096 .f32)

/-- Entry `(r, q)` of the block: the squared distance of row `r` of the first block and column `q` of the second. -/
theorem pay5_apply (r : Fin 512) (q : Fin 4096) :
    k0_pay5 (F := Ideal) x0 x1 (ix2 r q)
      = sqDiff (fun d => x0 (ix3 (0 : Fin 1) r d)) (fun d => x1 (ix3 (0 : Fin 1) d q)) := by
  have a0 : broadcastTo S512x4096 (extractStridedSlice S512x1 ![0, 0] (shapeCast S512x3 x0 shapeCasts_S1x512x3_S512x3) slices_S512x3_o0_0_S512x1) broadcasts_S512x1_S512x4096 (ix2 r q) = x0 (ix3 (0 : Fin 1) r (0 : Fin 3)) :=
    (broadcastTo_a1_ab_apply _ _ r q).trans ((slice2_axis1_apply 0 _ _ r (0 : Fin 1) (0 : Fin 3) rfl).trans (shapeCast_1ab_ab_apply x0 _ r 0))
  have a1 : broadcastTo S512x4096 (extractStridedSlice S512x1 ![0, 1] (shapeCast S512x3 x0 shapeCasts_S1x512x3_S512x3) slices_S512x3_o0_1_S512x1) broadcasts_S512x1_S512x4096 (ix2 r q) = x0 (ix3 (0 : Fin 1) r (1 : Fin 3)) :=
    (broadcastTo_a1_ab_apply _ _ r q).trans ((slice2_axis1_apply 1 _ _ r (0 : Fin 1) (1 : Fin 3) rfl).trans (shapeCast_1ab_ab_apply x0 _ r 1))
  have a2 : broadcastTo S512x4096 (extractStridedSlice S512x1 ![0, 2] (shapeCast S512x3 x0 shapeCasts_S1x512x3_S512x3) slices_S512x3_o0_2_S512x1) broadcasts_S512x1_S512x4096 (ix2 r q) = x0 (ix3 (0 : Fin 1) r (2 : Fin 3)) :=
    (broadcastTo_a1_ab_apply _ _ r q).trans ((slice2_axis1_apply 2 _ _ r (0 : Fin 1) (2 : Fin 3) rfl).trans (shapeCast_1ab_ab_apply x0 _ r 2))
  have b0 : broadcastTo S512x4096 (extractStridedSlice S1x4096 ![0, 0] (shapeCast S3x4096 x1 shapeCasts_S1x3x4096_S3x4096) slices_S3x4096_o0_0_S1x4096) broadcasts_S1x4096_S512x4096 (ix2 r q) = x1 (ix3 (0 : Fin 1) (0 : Fin 3) q) :=
    (broadcastTo_1b_ab_apply _ _ r q).trans ((slice2_axis0_apply 0 _ _ (0 : Fin 1) q (0 : Fin 3) rfl).trans (shapeCast_1ab_ab_apply x1 _ 0 q))
  have b1 : broadcastTo S512x4096 (extractStridedSlice S1x4096 ![1, 0] (shapeCast S3x4096 x1 shapeCasts_S1x3x4096_S3x4096) slices_S3x4096_o1_0_S1x4096) broadcasts_S1x4096_S512x4096 (ix2 r q) = x1 (ix3 (0 : Fin 1) (1 : Fin 3) q) :=
    (broadcastTo_1b_ab_apply _ _ r q).trans ((slice2_axis0_apply 1 _ _ (0 : Fin 1) q (1 : Fin 3) rfl).trans (shapeCast_1ab_ab_apply x1 _ 1 q))
  have b2 : broadcastTo S512x4096 (extractStridedSlice S1x4096 ![2, 0] (shapeCast S3x4096 x1 shapeCasts_S1x3x4096_S3x4096) slices_S3x4096_o2_0_S1x4096) broadcasts_S1x4096_S512x4096 (ix2 r q) = x1 (ix3 (0 : Fin 1) (2 : Fin 3) q) :=
    (broadcastTo_1b_ab_apply _ _ r q).trans ((slice2_axis0_apply 2 _ _ (0 : Fin 1) q (2 : Fin 3) rfl).trans (shapeCast_1ab_ab_apply x1 _ 2 q))
  unfold k0_pay5 sqDiff
  show ((Ideal.ofBits .f32 0x00000000#32 + (_ - _) * (_ - _)) + (_ - _) * (_ - _)) + (_ - _) * (_ - _) = _
  rw [a0, a1, a2, b0, b1, b2, Ideal.ofBits_zero_f32]

/-- The block's column minimum at `q`: the minimum over the block's rows. -/
theorem pay7_apply (q : Fin 4096) :
    k0_pay7 (F := Ideal) x0 x1 (ix2 (0 : Fin 1) q)
      = (Finset.univ : Finset (Fin 512)).fold min ⊤ (fun r => k0_pay5 (F := Ideal) x0 x1 (ix2 r q)) := by
  unfold k0_pay7
  refine (shapeCast_a_1a_apply _ _ (0 : Fin 1) q).trans ?_
  refine (minRed_apply (k0_pay5 (F := Ideal) x0 x1) reduces_S512x4096_S4096 (.inl rfl) rfl (ix1 q)).trans ?_
  show (Finset.univ : Finset (Fin 512)).fold min ⊤ _ = _
  refine congrArg (Finset.fold min ⊤ · Finset.univ) (funext fun r => ?_)
  exact congrArg (k0_pay5 (F := Ideal) x0 x1) (funext fun a => Fin.ext (by match a with | ⟨0, _⟩ => rfl | ⟨1, _⟩ => rfl))

/-- The block's row minimum at `r`: the minimum over the 4096 columns. -/
def blockRowMin (r : Fin 512) : EReal :=
  (Finset.univ : Finset (Fin 4096)).fold min ⊤ (fun q => k0_pay5 (F := Ideal) x0 x1 (ix2 r q))

/-- The running sum after the block: what it held plus the sum of the block's row minima. -/
theorem pay6_apply (x31 : Vec Ideal S1x1 .f32) :
    k0_pay6 (F := Ideal) x0 x1 x31 (ix2 (0 : Fin 1) (0 : Fin 1))
      = x31 (ix2 (0 : Fin 1) (0 : Fin 1)) + ∑ r : Fin 512, blockRowMin x0 x1 r := by
  unfold k0_pay6
  rw [shapeCast_self]
  show x31 (ix2 (0 : Fin 1) (0 : Fin 1)) + _ = _
  refine congrArg (x31 (ix2 (0 : Fin 1) (0 : Fin 1)) + ·) ?_
  refine (shapeCast_a_1a_apply _ _ (0 : Fin 1) (0 : Fin 1)).trans ?_
  refine (addRed_apply _ reduces_S512x1_S1 (.inl rfl) rfl (ix1 (0 : Fin 1))).trans ?_
  show ∑ r : Fin 512, _ = _
  refine Finset.sum_congr rfl fun r _ => ?_
  have e : reduces_S512x1_S1.lift (ix1 (0 : Fin 1)) r = ix2 r (0 : Fin 1) :=
    funext fun a => Fin.ext (by match a with | ⟨0, _⟩ => rfl | ⟨1, _⟩ => rfl)
  rw [e]
  refine (shapeCast_a_a1_apply _ _ r (0 : Fin 1)).trans ?_
  refine (minRed_apply (k0_pay5 (F := Ideal) x0 x1) reduces_S512x4096_S512 (.inl rfl) rfl (ix1 r)).trans ?_
  show (Finset.univ : Finset (Fin 4096)).fold min ⊤ _ = _
  unfold blockRowMin
  refine congrArg (Finset.fold min ⊤ · Finset.univ) (funext fun q => ?_)
  exact congrArg (k0_pay5 (F := Ideal) x0 x1) (funext fun a => Fin.ext (by match a with | ⟨0, _⟩ => rfl | ⟨1, _⟩ => rfl))

/-- The running column minimum after the block: the minimum of what it held and the block's column minimum. -/
theorem pay1_apply (v39 : FVec Ideal S1x4096 .f32) (v40 : Vec Ideal S1x4096 .f32) (i : S1x4096.Idx) :
    k0_pay1 (F := Ideal) v39 v40 i = min (v40 i) (v39 i) := by
  unfold k0_pay1
  rw [shapeCast_self]
  rfl

/-- The running minimum restarts from +infinity, -/
theorem pay3_apply (i : S1x4096.Idx) : k0_pay3 (F := Ideal) i = ⊤ := by
  unfold k0_pay3
  rw [shapeCast_self]
  exact ofBits_inf

/-- and the running sum from zero. -/
theorem pay4_apply (i : S1x1.Idx) : k0_pay4 (F := Ideal) i = 0 := by
  unfold k0_pay4
  rw [shapeCast_self]
  exact Ideal.ofBits_zero_f32

/-- The batch's cost from the two scratch buffers: the two sums scaled by 2^-12, added and halved. -/
theorem pay2_apply (v48 : Vec Ideal S1x4096 .f32) (v51 : Vec Ideal S1x1 .f32) :
    k0_pay2 (F := Ideal) v48 v51 (ix3 (0 : Fin 1) (0 : Fin 1) (0 : Fin 1))
      = (v51 (ix2 (0 : Fin 1) (0 : Fin 1)) * ((1 / 4096 : ℝ) : EReal)
          + (∑ q : Fin 4096, v48 (ix2 (0 : Fin 1) q)) * ((1 / 4096 : ℝ) : EReal)) * Ideal.ofBits .f32 0x3F000000#32 := by
  unfold k0_pay2
  refine (shapeCast_ab_1ab_apply _ _ (0 : Fin 1) (0 : Fin 1) (0 : Fin 1)).trans ?_
  show (v51 (ix2 (0 : Fin 1) (0 : Fin 1)) * Ideal.ofBits .f32 0x39800000#32 + _ * Ideal.ofBits .f32 0x39800000#32) * Ideal.ofBits .f32 0x3F000000#32 = _
  rw [ofBits_inv4096]
  refine congrArg (fun z => (v51 (ix2 (0 : Fin 1) (0 : Fin 1)) * ((1 / 4096 : ℝ) : EReal) + z * ((1 / 4096 : ℝ) : EReal)) * Ideal.ofBits .f32 0x3F000000#32) ?_
  refine (shapeCast_a_1a_apply _ _ (0 : Fin 1) (0 : Fin 1)).trans ?_
  refine (addRed_apply v48 reduces_S1x4096_S1 (.inl rfl) rfl (ix1 (0 : Fin 1))).trans ?_
  show ∑ q : Fin 4096, _ = _
  refine Finset.sum_congr rfl fun q _ => ?_
  exact congrArg v48 (funext fun a => Fin.ext (by match a with | ⟨0, _⟩ => rfl | ⟨1, _⟩ => rfl))

end Cert.KernelIdeal.Payloads

end
-- ==== Proof.Blocks.lean ====
/- Which rows of the two clouds the windows' blocks hold at a grid point: point `t` is batch `t / 8`, rows
   `512 (t % 8) …` of the first cloud, and the whole second cloud of that batch, transposed before the region. -/
import proofs.«120232_j61194694033711_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The batch a grid point works on. -/
def batchOf (n : ℕ) : Fin 16 := ⟨n / 8 % 16, Nat.mod_lt _ (by norm_num)⟩

/-- Row `r` of the block of the first cloud at a grid point, as a row of the cloud. -/
def rowOf (n : ℕ) (r : Fin 512) : Fin 4096 := ⟨512 * (n % 8) + r.val, by have := r.isLt; have := Nat.mod_lt n (show 0 < 8 by norm_num); omega⟩

/-- The printed index maps over the grid: every window's block index is the batch; the first cloud's also moves along
    the rows with the position inside the batch. -/
theorem idx_facts : ∀ t : Fin cfg0.N, win0_0.index t (0 : Fin 3) = t.val / 8 ∧ win0_0.index t (1 : Fin 3) = t.val % 8
    ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The first cloud's block at point `t`, entry `(r, d)`: coordinate `d` of row `512 (t % 8) + r` of batch `t / 8`. -/
theorem iblk0_apply (c : Dev nD) (t : Fin cfg0.N) (r : Fin 512) (d : Fin 3) :
    (iblk m c 0 t : Vec F S1x512x3 .f32) (ix3 (0 : Fin 1) r d)
      = m ((c : Thread nD τ).loc main_arg0) (ix3 (batchOf t.val) (rowOf t.val r) d) := by
  obtain ⟨e0, e1, e2, -⟩ := idx_facts t
  have hN : t.val < 128 := lt_of_lt_of_eq t.isLt (show cfg0.N = 128 from N_0)
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val / 8 % 16; rw [e0]; omega
  | ⟨1, _⟩ => show win0_0.index t (1 : Fin 3) * 512 + 1 * r.val = 512 * (t.val % 8) + r.val; rw [e1]; omega
  | ⟨2, _⟩ => show win0_0.index t (2 : Fin 3) * 3 + 1 * d.val = d.val; rw [e2]; omega

/-- The region finds, as its second operand, the second cloud with its last two axes exchanged. -/
theorem V_main_v0 (c : Dev nD) :
    (V m c main_v0 : S16x3x4096.Idx → Elt F .f32)
      = transpose S16x3x4096 [0, 2, 1] (m ((c : Thread nD τ).loc main_arg1)) transposes_S16x4096x3_S16x3x4096_0_2_1 := by
  show StableHlo.after hostOps0 (fun b => m (c, b)) (Proc.devRef .tc main_v0) = _
  after_results

/-- The second cloud's block at point `t`, entry `(d, q)`: coordinate `d` of row `q` of batch `t / 8`. -/
theorem iblk1_apply (c : Dev nD) (t : Fin cfg0.N) (d : Fin 3) (q : Fin 4096) :
    (iblk m c 1 t : Vec F S1x3x4096 .f32) (ix3 (0 : Fin 1) d q)
      = m ((c : Thread nD τ).loc main_arg1) (ix3 (batchOf t.val) q d) := by
  obtain ⟨-, -, -, e3, e4, e5, -⟩ := idx_facts t
  have hN : t.val < 128 := lt_of_lt_of_eq t.isLt (show cfg0.N = 128 from N_0)
  unfold iblk
  rw [View.read_apply]
  show V m c main_v0 _ = _
  rw [V_main_v0]
  have e : (((cfg0.win 1).blk t).view.emb (ix3 (0 : Fin 1) d q) : S16x3x4096.Idx) = ix3 (batchOf t.val) d q :=
    funext fun a => Fin.ext (by
      match a with
      | ⟨0, _⟩ => show win0_1.index t (0 : Fin 3) * 1 + 1 * 0 = t.val / 8 % 16; rw [e3]; omega
      | ⟨1, _⟩ => show win0_1.index t (1 : Fin 3) * 3 + 1 * d.val = d.val; rw [e4]; omega
      | ⟨2, _⟩ => show win0_1.index t (2 : Fin 3) * 4096 + 1 * q.val = q.val; rw [e5]; omega)
  exact (congrArg (transpose S16x3x4096 [0, 2, 1] (m ((c : Thread nD τ).loc main_arg1)) transposes_S16x4096x3_S16x3x4096_0_2_1) e).trans
    (transpose_ix3_021_apply _ _ (batchOf t.val) d q)

end Cert.KernelIdeal.Blocks

end
-- ==== Proof.Running.lean ====
/- What the two carried scratch buffers hold after each grid point — the minimum over the rows seen so far of each
   column of squared distances, and the sum over those rows of the row minima — and so what the last point of a batch
   stores: the batch's cost. -/
import proofs.«120232_j61194694033711_2_alg».proof.Proof.Pieces
import proofs.«120232_j61194694033711_2_alg».proof.Proof.Payloads
import proofs.«120232_j61194694033711_2_alg».proof.Proof.Blocks

noncomputable section

open Idealize.ShloMosaic Idealize.ShloMosaic.TcCoe Idealize.SL.Sem Idealize.ShloMosaic.ValueIdx

namespace Cert.KernelIdeal.Running

open Cert.KernelIdeal Cert.KernelIdeal.Gen Cert.Chamfer Cert.Lib.MinFold Cert.KernelIdeal.Pieces Cert.KernelIdeal.Payloads Cert.KernelIdeal.Blocks

/-! ## The three control cases, at any float instance -/

section Cases
variable {F : FTy → Type} [FloatOps F]
variable (m : (ℓ : Loc nD τ sig) → Buf (Elt F) ℓ)

/-- What the point before left in the output and the two scratch buffers. -/
abbrev prev (c : Dev nD) (t : Fin cfg0.N) : Vec F S1x1x1 .f32 × Vec F S1x4096 .f32 × Vec F S1x1 .f32 :=
  outsAt0 m c (t.val - 1) (Nat.lt_of_le_of_lt (Nat.sub_le _ _) t.isLt)

/-- At the first point of a batch the scratch restarts: from +infinity and from zero. -/
theorem scratch_first (c : Dev nD) (t : Fin cfg0.N) (h0 : t.val % 8 = 0) :
    (outsAt0 m c t.val t.isLt).2.1 = k0_pay1 (k0_pay7 (iblk m c 0 t) (iblk m c 1 t)) (k0_pay3 (F := F))
      ∧ (outsAt0 m c t.val t.isLt).2.2 = k0_pay6 (iblk m c 0 t) (iblk m c 1 t) (k0_pay4 (F := F)) := by
  have h1 : ¬t.val % 8 = 7 := by omega
  rw [outsAt0_A m c t h0 h1]
  dsimp only
  exact ⟨sout_A_0 (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    sout_A_1 (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- At every later point of a batch it continues from what the point before left. -/
theorem scratch_later (c : Dev nD) (t : Fin cfg0.N) (h0 : ¬t.val % 8 = 0) :
    (outsAt0 m c t.val t.isLt).2.1 = k0_pay1 (k0_pay7 (iblk m c 0 t) (iblk m c 1 t)) (prev m c t).2.1
      ∧ (outsAt0 m c t.val t.isLt).2.2 = k0_pay6 (iblk m c 0 t) (iblk m c 1 t) (prev m c t).2.2 := by
  by_cases h1 : t.val % 8 = 7
  · rw [outsAt0_C m c t h0 h1]
    dsimp only
    exact ⟨sout_C_0 (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2,
      sout_C_1 (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2⟩
  · rw [outsAt0_B m c t h0 h1]
    dsimp only
    exact ⟨sout_B_0 (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (prev m c t).2.1 (prev m c t).2.2,
      sout_B_1 (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (prev m c t).2.1 (prev m c t).2.2⟩

/-- The last point of a batch stores the cost computed from the scratch as that point leaves it. -/
theorem out_last (c : Dev nD) (t : Fin cfg0.N) (h1 : t.val % 8 = 7) :
    (outsAt0 m c t.val t.isLt).1 = k0_pay2 (outsAt0 m c t.val t.isLt).2.1 (outsAt0 m c t.val t.isLt).2.2 := by
  have h0 : ¬t.val % 8 = 0 := by omega
  obtain ⟨e0, e1⟩ := scratch_later m c t h0
  rw [e0, e1, outsAt0_C m c t h0 h1]
  dsimp only
  exact out_C_2 (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2

end Cases

/-! ## On the extended reals -/

variable (m : (ℓ : Loc nD τ sig) → Buf (Elt Ideal) ℓ)

/-- The squared distance of row `n` of the first cloud and row `q` of the second, in batch `b`, as the body forms it. -/
def d2K (c : Dev nD) (b : Fin 16) (n q : Fin 4096) : EReal :=
  sqDiff (fun d => m ((c : Thread nD τ).loc main_arg0) (ix3 b n d)) (fun d => m ((c : Thread nD τ).loc main_arg1) (ix3 b q d))

/-- The block of squared distances at point `t` is rows `512 (t % 8) …` of batch `t / 8`'s table. -/
theorem block_sq (c : Dev nD) (t : Fin cfg0.N) (r : Fin 512) (q : Fin 4096) :
    k0_pay5 (F := Ideal) (iblk m c 0 t) (iblk m c 1 t) (ix2 r q) = d2K m c (batchOf t.val) (rowOf t.val r) q :=
  (pay5_apply (iblk m c 0 t) (iblk m c 1 t) r q).trans
    (congrArg₂ sqDiff (funext fun d => iblk0_apply m c t r d) (funext fun d => iblk1_apply m c t d q))

/-- One point's step: from scratch contents that are the minimum and the sum over the batch's first `512 (t % 8)`
    rows, the body leaves the minimum and the sum over its first `512 (t % 8 + 1)` rows. -/
theorem step (c : Dev nD) (t : Fin cfg0.N) (xs0 : Vec Ideal S1x4096 .f32) (xs1 : Vec Ideal S1x1 .f32)
    (h0 : ∀ (q : Fin 4096) (x : EReal), x ≤ xs0 (ix2 (0 : Fin 1) q)
      ↔ ∀ k : Fin 4096, k.val < 512 * (t.val % 8) → x ≤ d2K m c (batchOf t.val) k q)
    (h1 : xs1 (ix2 (0 : Fin 1) (0 : Fin 1))
      = ∑ k ∈ Finset.range (512 * (t.val % 8)), ext (rowMin (d2K m c) (batchOf t.val)) k) :
    (∀ (q : Fin 4096) (x : EReal), x ≤ k0_pay1 (F := Ideal) (k0_pay7 (iblk m c 0 t) (iblk m c 1 t)) xs0 (ix2 (0 : Fin 1) q)
        ↔ ∀ k : Fin 4096, k.val < 512 * (t.val % 8 + 1) → x ≤ d2K m c (batchOf t.val) k q)
      ∧ k0_pay6 (F := Ideal) (iblk m c 0 t) (iblk m c 1 t) xs1 (ix2 (0 : Fin 1) (0 : Fin 1))
        = ∑ k ∈ Finset.range (512 * (t.val % 8 + 1)), ext (rowMin (d2K m c) (batchOf t.val)) k := by
  have hj : t.val % 8 < 8 := Nat.mod_lt _ (by norm_num)
  constructor
  · intro q x
    rw [pay1_apply]
    refine running_min_step (fun k => d2K m c (batchOf t.val) k q) (t.val % 8) hj _ _ (h0 q) (fun y => ?_) x
    rw [pay7_apply, le_fold_min_univ]
    exact forall_congr' fun r => by rw [block_sq m c t r q]; rfl
  · rw [pay6_apply, h1, sum_range_block]
    refine congrArg _ (Finset.sum_congr rfl fun r _ => ?_)
    rw [ext_of_lt _ _ (by have := r.isLt; omega)]
    unfold blockRowMin rowMin
    exact congrArg (Finset.fold min ⊤ · Finset.univ) (funext fun q => block_sq m c t r q)

/-- After point `n` the scratch holds the minimum and the sum over the first `512 (n % 8 + 1)` rows of the batch. -/
def Inv (c : Dev nD) (n : ℕ) (h : n < cfg0.N) : Prop :=
  (∀ (q : Fin 4096) (x : EReal), x ≤ (outsAt0 m c n h).2.1 (ix2 (0 : Fin 1) q)
      ↔ ∀ k : Fin 4096, k.val < 512 * (n % 8 + 1) → x ≤ d2K m c (batchOf n) k q)
    ∧ (outsAt0 m c n h).2.2 (ix2 (0 : Fin 1) (0 : Fin 1))
      = ∑ k ∈ Finset.range (512 * (n % 8 + 1)), ext (rowMin (d2K m c) (batchOf n)) k

theorem inv_all (c : Dev nD) : ∀ (n : ℕ) (h : n < cfg0.N), Inv m c n h
  | 0, h => by
    obtain ⟨e0, e1⟩ := scratch_first m c ⟨0, h⟩ rfl
    unfold Inv
    rw [e0, e1]
    refine step m c ⟨0, h⟩ _ _ (fun q x => ?_) ?_
    · rw [pay3_apply]
      exact ⟨fun _ k hk => absurd hk (by show ¬k.val < 512 * (0 % 8); omega), fun _ => le_top⟩
    · rw [pay4_apply]
      show (0 : EReal) = ∑ k ∈ Finset.range (512 * (0 % 8)), _
      rw [show 512 * (0 % 8) = 0 from rfl, Finset.range_zero, Finset.sum_empty]
  | n + 1, h => by
    have ih := inv_all c n (Nat.lt_of_succ_lt h)
    have hN : n + 1 < 128 := lt_of_lt_of_eq h (show cfg0.N = 128 from N_0)
    by_cases h0 : (n + 1) % 8 = 0
    · obtain ⟨e0, e1⟩ := scratch_first m c ⟨n + 1, h⟩ h0
      unfold Inv
      rw [e0, e1]
      refine step m c ⟨n + 1, h⟩ _ _ (fun q x => ?_) ?_
      · rw [pay3_apply]
        exact ⟨fun _ k hk => absurd hk (by show ¬k.val < 512 * ((n + 1) % 8); omega), fun _ => le_top⟩
      · rw [pay4_apply]
        show (0 : EReal) = ∑ k ∈ Finset.range (512 * ((n + 1) % 8)), _
        rw [h0, Nat.mul_zero, Finset.range_zero, Finset.sum_empty]
    · obtain ⟨e0, e1⟩ := scratch_later m c ⟨n + 1, h⟩ h0
      unfold Inv
      rw [e0, e1]
      have hb : batchOf n = batchOf (n + 1) := Fin.ext (by show n / 8 % 16 = (n + 1) / 8 % 16; omega)
      have hm : n % 8 + 1 = (n + 1) % 8 := by omega
      refine step m c ⟨n + 1, h⟩ _ _ ?_ ?_
      · intro q x
        have := ih.1 q x
        rw [hb, hm] at this
        exact this
      · have := ih.2
        rw [hb, hm] at this
        exact this

/-- After the last point of a batch the scratch holds every column's minimum and the sum of every row's minimum, -/
theorem scratch_last (c : Dev nD) (t : Fin cfg0.N) (h1 : t.val % 8 = 7) :
    (∀ q : Fin 4096, (outsAt0 m c t.val t.isLt).2.1 (ix2 (0 : Fin 1) q) = colMin (d2K m c) (batchOf t.val) q)
      ∧ (outsAt0 m c t.val t.isLt).2.2 (ix2 (0 : Fin 1) (0 : Fin 1)) = ∑ n : Fin 4096, rowMin (d2K m c) (batchOf t.val) n := by
  obtain ⟨i0, i1⟩ := inv_all m c t.val t.isLt
  constructor
  · intro q
    refine eq_of_le_iff fun x => ?_
    unfold colMin
    rw [i0 q x, le_fold_min_univ]
    exact ⟨fun h k => h k (by have := k.isLt; omega), fun h k _ => h k⟩
  · rw [i1, h1, show 512 * (7 + 1) = 4096 from rfl, sum_range_ext]

/-- so what that point stores is the batch's cost. -/
theorem out_last_eq (c : Dev nD) (t : Fin cfg0.N) (h1 : t.val % 8 = 7) :
    (outsAt0 m c t.val t.isLt).1 (ix3 (0 : Fin 1) (0 : Fin 1) (0 : Fin 1)) = batchCost (d2K m c) (batchOf t.val) := by
  obtain ⟨s0, s1⟩ := scratch_last m c t h1
  rw [out_last m c t h1, pay2_apply, s1]
  unfold batchCost
  rw [Finset.sum_congr rfl fun q _ => s0 q]

end Cert.KernelIdeal.Running

end
-- ==== Proof.Result.lean ====
/- The kernel's result: each batch's last grid point writes that batch's cost into its own entry of the per-batch
   array, the sixteen entries are all written, and the host sums them. -/
import proofs.«120232_j61194694033711_2_alg».proof.Proof.Running
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Chamfer Cert.KernelIdeal.Blocks Cert.KernelIdeal.Running

variable (m : (ℓ : Loc nD τ sig) → Buf (Elt Ideal) ℓ) (ρ : Dev nD → PrngReg)

/-- The per-batch array the region leaves: entry `b` is batch `b`'s cost. -/
def partials (c : Dev nD) : S16x1x1.Idx → EReal :=
  fun i => batchCost (d2K m c) ⟨(i 0).val % 16, Nat.mod_lt _ (by norm_num)⟩

theorem partials_apply (c : Dev nD) (b : Fin 16) :
    partials m c (ix3 b (0 : Fin 1) (0 : Fin 1)) = batchCost (d2K m c) b :=
  congrArg (batchCost (d2K m c)) (Fin.ext (Nat.mod_eq_of_lt b.isLt))

/-- What a batch's last point writes back is that batch's entry. -/
theorem flushed_eq (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  have hN : t.val < 128 := lt_of_lt_of_eq t.isLt (show cfg0.N = 128 from N_0)
  obtain ⟨-, -, -, -, -, -, e6, e7, e8⟩ := idx_facts t
  show (cfg0.win 2).cut (grid0.coords t) ((dats m 0 c).after 2 t) = _
  rw [after0_2]
  refine funext fun (y : S1x1x1.Idx) => ?_
  obtain ⟨a, b, d, rfl⟩ : ∃ (a b d : Fin 1), y = ix3 a b d := ⟨y 0, y 1, y 2, eq_ix3 y⟩
  obtain rfl : a = 0 := Subsingleton.elim _ _
  obtain rfl : b = 0 := Subsingleton.elim _ _
  obtain rfl : d = 0 := Subsingleton.elim _ _
  rw [View.read_apply]
  refine (out_last_eq m c t h7).trans ?_
  unfold partials batchOf
  refine congrArg (batchCost (d2K m c)) (Fin.ext ?_)
  show t.val / 8 % 16 = (win0_2.index t (0 : Fin 3) * 1 + 1 * 0) % 16
  rw [e6]
  omega

/-- Every entry of the per-batch array is written by its batch's last point. -/
theorem cover (c : Dev nD) (i : S16x1x1.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1 := (i 2).isLt
  let t : Fin cfg0.N := ⟨8 * (i 0).val + 7, by rw [show cfg0.N = 128 from N_0]; omega⟩
  obtain ⟨-, -, -, -, -, -, e6, e7, e8⟩ := idx_facts t
  have ht : t.val = 8 * (i 0).val + 7 := rfl
  refine ⟨t, (flush0_2 t).mpr (by rw [ht]; omega), ?_⟩
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e6, ht]; omega
  | ⟨1, _⟩ => show win0_2.index t (1 : Fin 3) * 1 ≤ (i 1).val ∧ (i 1).val < win0_2.index t (1 : Fin 3) * 1 + 1; rw [e7]; omega
  | ⟨2, _⟩ => show win0_2.index t (2 : Fin 3) * 1 ≤ (i 2).val ∧ (i 2).val < win0_2.index t (2 : Fin 3) * 1 + 1; rw [e8]; omega

/-- So the per-batch array ends holding the sixteen costs. -/
theorem final (c : Dev nD) : (dats m 0 c).arrAt 2 cfg0.N = partials m c :=
  (dats m 0 c).arrAt_eq_of_cover 2 (partials m c) (flushed_eq m c) (cover c)

/-- An index of the per-batch array is its batch followed by two zeros. -/
theorem idx_eq (i : S16x1x1.Idx) : i = ix3 (⟨(i 0).val, (i 0).isLt⟩ : Fin 16) (0 : Fin 1) (0 : Fin 1) := by
  have h1 : (i 1).val < 1 := (i 1).isLt
  have h2 : (i 2).val < 1 := (i 2).isLt
  funext a
  apply Fin.ext
  match a with
  | ⟨0, _⟩ => rfl
  | ⟨1, _⟩ => show (i 1).val = 0; omega
  | ⟨2, _⟩ => show (i 2).val = 0; omega

/-- The sixteen entries indexed by the rank-three index they are summed over. -/
theorem sum_partials (f : S16x1x1.Idx → EReal) : ∑ i : S16x1x1.Idx, f i = ∑ b : Fin 16, f (ix3 b (0 : Fin 1) (0 : Fin 1)) :=
  Fintype.sum_equiv ⟨fun i => (⟨(i 0).val, (i 0).isLt⟩ : Fin 16), fun b => ix3 b (0 : Fin 1) (0 : Fin 1),
      fun i => (idx_eq i).symm, fun _ => rfl⟩ f (fun b => f (ix3 b (0 : Fin 1) (0 : Fin 1)))
    fun i => congrArg f (idx_eq i)

/-- The host's sum after the region: the cost. -/
theorem tail_eq (c : Dev nD) :
    Pipeline.afterTail₀ cfgs (dats m) 0 (V0 m) [hostOps1] c main_v2 = fun _ => cost (d2K m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = partials m c := (Pipeline.withArrays_arr spec0 launch0.win.arr_inj c _ _ 2).trans (final m c)
  rw [hw]
  funext i
  simp only [Host.reduceAdd, Ideal.hostReduceAdd_def]
  refine (Ideal.hostReduceAdd_total reducesTo_S16x1x1_S_d0_1_2 (fun b => b.elim0) (partials m c) _ i).trans ?_
  show Ideal.ofBits .f32 0x00000000#32 + _ = _
  rw [Ideal.ofBits_zero_f32, zero_add, sum_partials]
  unfold cost
  exact Finset.sum_congr rfl fun b _ => partials_apply m c b

/-- The kernel's result on core `c`: the cost of its table of squared distances. -/
def result (c : Dev nD) : S_.Idx → EReal := fun _ => cost (d2K m c)

/-- The run, read: the result at the cost, the two clouds unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Result

end
-- ==== Proof.lean ====
/- Chamfer cost of two point clouds: per batch, the mean over each cloud of the squared distance to the nearest point of
   the other cloud, the two means added and halved; the batches' costs summed.

   The kernel forms the squared distance of two points as the sum over the three coordinates of the squared difference,
   walks the first cloud in eight blocks of 512 rows per batch, and carries across the blocks a running minimum per
   point of the second cloud and a running sum of the first cloud's row minima; the last block of a batch turns the two
   into that batch's cost, and the host adds the sixteen costs. The reference expands the square into the two squared
   norms minus twice the inner product, takes both minima of the whole table, and divides the sums by 4096.

   Over finite inputs the two tables of squared distances are one table of reals (the square of a difference,
   expanded); minima and sums over an axis do not depend on the blocking; and the kernel's factor 2^-12 is the quotient
   by 4096 on every extended real. Finiteness is used for the first of these only. -/
import proofs.«120232_j61194694033711_2_alg».proof.Defs
import proofs.«120232_j61194694033711_2_alg».proof.Proof.Gen.Kernel
import proofs.«120232_j61194694033711_2_alg».proof.Proof.Gen.Kernel.Skeleton
import proofs.«120232_j61194694033711_2_alg».proof.Proof.Gen.Kernel.Launch
import proofs.«120232_j61194694033711_2_alg».proof.Proof.Gen.Kernel.Points
import proofs.«120232_j61194694033711_2_alg».proof.Proof.Gen.Kernel.Frame
import proofs.«120232_j61194694033711_2_alg».proof.Proof.Gen.KernelIdeal
import proofs.«120232_j61194694033711_2_alg».proof.Proof.Gen.KernelIdeal.Skeleton
import proofs.«120232_j61194694033711_2_alg».proof.Proof.Gen.KernelIdeal.Launch
import proofs.«120232_j61194694033711_2_alg».proof.Proof.Gen.KernelIdeal.Points
import proofs.«120232_j61194694033711_2_alg».proof.Proof.Gen.KernelIdeal.Frame
import proofs.«120232_j61194694033711_2_alg».proof.Proof.Gen.ReferenceIdeal
import proofs.«120232_j61194694033711_2_alg».proof.Proof.Gen.ReferenceIdeal.Run
import proofs.«120232_j61194694033711_2_alg».proof.Proof.Gen.ReferenceIdeal.Read
import proofs.«120232_j61194694033711_2_alg».proof.Proof.Gen.Pre_finite_inputs
import proofs.«120232_j61194694033711_2_alg».proof.Proof.ChamferSpec
import proofs.«120232_j61194694033711_2_alg».proof.Proof.Finite
import proofs.«120232_j61194694033711_2_alg».proof.Proof.RefValue
import proofs.«120232_j61194694033711_2_alg».proof.Proof.Result
import Idealize.ShloMosaic.Adequacy
import Idealize.ShloMosaic.Init

noncomputable section

namespace Cert.Proof

open Idealize.ShloMosaic Idealize.SL.Sem Idealize.ShloMosaic.ValueIdx Cert.Chamfer

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Over clouds of reals the two tables of squared distances agree entry by entry. -/
theorem tables_agree (a0 a1 : FVec Ideal Cert.Pre_finite_inputs.S16x4096x3 .f32)
    (h0 : ∀ i, ∃ r : ℝ, a0 i = (r : EReal)) (h1 : ∀ i, ∃ r : ℝ, a1 i = (r : EReal)) (b : Fin 16) (n q : Fin 4096) :
    sqExpand (fun d => a0 (ix3 b n d)) (fun d => a1 (ix3 b q d)) = sqDiff (fun d => a0 (ix3 b n d)) (fun d => a1 (ix3 b q d)) := by
  choose r0 hr0 using h0
  choose r1 hr1 using h1
  simp only [hr0, hr1]
  exact (sqDiff_eq_sqExpand (fun d => r0 (ix3 b n d)) (fun d => r1 (ix3 b q d))).symm

/-- Both programs end at the cost of one table of squared distances. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.ReferenceIdeal.RefValue.result_eq, (hagree c).1, (hagree c).2]
  obtain ⟨f0, f1⟩ := Cert.Chamfer.Finite.reals_of_pre _ _ (hpre c)
  refine funext fun _ => congrArg cost (funext fun b => funext fun n => funext fun q => ?_)
  exact tables_agree _ _ f0 f1 b n q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
